-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_sqrt_d" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x512 : Shape := ⟨3, ![8, 32, 512]⟩
abbrev S1x128 : Shape := ⟨2, ![1, 128]⟩
abbrev S_ : Shape := ⟨0, ![]⟩

class Facts : Prop where
  bcast_S_S8x32x512 : S_.BroadcastsInDim S8x32x512 (![] : Fin 0 → Fin S8x32x512.rank)
  reducesTo_S8x32x512_S_d0_1_2 : S8x32x512.ReducesTo [0, 1, 2] S_
  h_S_ : 0 < S_.numel
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  main_v18

def fn {F : FTy → Type} [FloatOps F] (main_arg0 : FVec F S8x32x512 .f32) (main_arg1 : FVec F S1x128 .f32) (main_arg2 : FVec F S1x128 .f32) (main_arg3 : FVec F S1x128 .f32) : IVec S_ 1 :=
  let main_v0 : FVec F S8x32x512 .f32 := Host.absf main_arg0
  let main_cst : FVec F S_ .f32 := constant S_ .f32 0x7F800000#32
  let main_v1 : FVec F S8x32x512 .f32 := broadcastInDim S8x32x512 ![] bcast_S_S8x32x512 main_cst
  let main_v2 : IVec S8x32x512 1 := cmpf .olt main_v0 main_v1
  let main_c : IVec S_ 1 := constantI S_ 1 1#1
  let main_v3 : IVec S_ 1 := (fun x v => Host.reduce IntOp.andi x v reducesTo_S8x32x512_S_d0_1_2 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_v13 main_v16
-- ==== Kernel.lean ====
abbrev S8x32x512 : Shape := ⟨3, ![8, 32, 512]⟩
abbrev S1x128 : Shape := ⟨2, ![1, 128]⟩
abbrev S256x512 : Shape := ⟨2, ![256, 512]⟩
abbrev S256x128 : Shape := ⟨2, ![256, 128]⟩
abbrev S8x512 : Shape := ⟨2, ![8, 512]⟩
abbrev S8x128 : Shape := ⟨2, ![8, 128]⟩
abbrev S1 : Shape := ⟨1, ![1]⟩
abbrev S1x1 : Shape := ⟨2, ![1, 1]⟩
abbrev S8x512x1 : Shape := ⟨3, ![8, 512, 1]⟩
abbrev S8x1x512 : Shape := ⟨3, ![8, 1, 512]⟩
abbrev S8x512x512 : Shape := ⟨3, ![8, 512, 512]⟩
abbrev S8 : Shape := ⟨1, ![8]⟩
abbrev S8x1 : Shape := ⟨2, ![8, 1]⟩
abbrev S8x32x128 : Shape := ⟨3, ![8, 32, 128]⟩

abbrev nBuf : Space → Nat
  | .hbm => 7
  | .vmem => 7
  | .smem => 0
  | _ => 0

abbrev bufTy : (tb : Table) → Fin (tcTables nBuf tb) → BufTy
  | .hbm, ⟨0, _⟩ => ⟨S8x32x512, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S256x512, .f32⟩
  | .hbm, ⟨5, _⟩ => ⟨S256x128, .f32⟩
  | .hbm, ⟨6, _⟩ => ⟨S8x32x128, .f32⟩
  | .local _ .vmem, ⟨0, _⟩ => ⟨S8x512, .f32⟩
  | .local _ .vmem, ⟨1, _⟩ => ⟨S8x512, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S8x128, .f32⟩
  | .local _ .vmem, ⟨6, _⟩ => ⟨S8x128, .f32⟩
  | _, _ => ⟨S8x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x32x512_S256x512 : S8x32x512.ShapeCasts S256x512
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S1x128_S1x128_0_0 : ∀ a, (![0, 0] : Fin 2 → Nat) a + S1x128.size a ≤ S1x128.size a
  h_S1x128 : 0 < S1x128.numel
  reduces_S1x128_S1 : S1x128.Reduces [1] S1
  shapeCasts_S1_S1x1 : S1.ShapeCasts S1x1
  broadcasts_S1x1_S8x512 : S1x1.Broadcasts S8x512
  shapeCasts_S8x512_S8x512x1 : S8x512.ShapeCasts S8x512x1
  shapeCasts_S8x512_S8x1x512 : S8x512.ShapeCasts S8x1x512
  broadcasts_S8x512x1_S8x512x512 : S8x512x1.Broadcasts S8x512x512
  broadcasts_S8x1x512_S8x512x512 : S8x1x512.Broadcasts S8x512x512
  reduces_S8x512x512_S8x512 : S8x512x512.Reduces [2] S8x512
  reduces_S8x512x512_S8x512_2 : S8x512x512.Reduces [1] S8x512
  reduces_S8x512_S8 : S8x512.Reduces [1] S8
  shapeCasts_S8_S8x1 : S8.ShapeCasts S8x1
  broadcasts_S8x1_S8x128 : S8x1.Broadcasts S8x128
  broadcasts_S1x128_S8x128 : S1x128.Broadcasts S8x128
  inb_S8x128_S8x128_0_0 : ∀ a, (![0, 0] : Fin 2 → Nat) a + S8x128.size a ≤ S8x128.size a
  h_S8x128 : 0 < S8x128.numel
  shapeCasts_S256x128_S8x32x128 : S256x128.ShapeCasts S8x32x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S256x512.size a
  hwx0_0 : ∀ i : grid0.Coords, EltTy.bits .f32 = 32 ∨ (Rect.block (s := S256x512) S8x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S256x128.size a
  hwx0_4 : ∀ i : grid0.Coords, EltTy.bits .f32 = 32 ∨ (Rect.block (s := S256x128) S8x128.size (cc0_transform_4 i) (hinb0_4 i)).WholeWords (EltTy.packing .f32)

variable [Facts₀]

abbrev win0_0 : Pipeline.Window sig grid0 :=
  Pipeline.Window.ofSpec (Memref.whole main_v0) S8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x32x512 : Shape := ⟨3, ![8, 32, 512]⟩
abbrev S1x128 : Shape := ⟨2, ![1, 128]⟩
abbrev S8x32x512x1 : Shape := ⟨4, ![8, 32, 512, 1]⟩
abbrev S128 : Shape := ⟨1, ![128]⟩
abbrev S1x1x1x128 : Shape := ⟨4, ![1, 1, 1, 128]⟩
abbrev S8x32x512x128 : Shape := ⟨4, ![8, 32, 512, 128]⟩
abbrev S8x32x512x512 : Shape := ⟨4, ![8, 32, 512, 512]⟩
abbrev S_ : Shape := ⟨0, ![]⟩
abbrev S8x32x128 : Shape := ⟨3, ![8, 32, 128]⟩

abbrev nBuf : Space → Nat
  | .hbm => 46
  | .vmem => 0
  | .smem => 0
  | _ => 0

abbrev bufTy : (tb : Table) → Fin (tcTables nBuf tb) → BufTy
  | .hbm, ⟨0, _⟩ => ⟨S8x32x512, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S8x32x512x1, .f32⟩
  | .hbm, ⟨5, _⟩ => ⟨S128, .f32⟩
  | .hbm, ⟨6, _⟩ => ⟨S1x1x1x128, .f32⟩
  | .hbm, ⟨7, _⟩ => ⟨S8x32x512x128, .f32⟩
  | .hbm, ⟨8, _⟩ => ⟨S8x32x512x128, .f32⟩
  | .hbm, ⟨9, _⟩ => ⟨S8x32x512x128, .f32⟩
  | .hbm, ⟨10, _⟩ => ⟨S8x32x512x1, .f32⟩
  | .hbm, ⟨11, _⟩ => ⟨S128, .f32⟩
  | .hbm, ⟨12, _⟩ => ⟨S1x1x1x128, .f32⟩
  | .hbm, ⟨13, _⟩ => ⟨S8x32x512x128, .f32⟩
  | .hbm, ⟨14, _⟩ => ⟨S8x32x512x128, .f32⟩
  | .hbm, ⟨15, _⟩ => ⟨S8x32x512x128, .f32⟩
  | .hbm, ⟨16, _⟩ => ⟨S8x32x512x1, .f32⟩
  | .hbm, ⟨17, _⟩ => ⟨S128, .f32⟩
  | .hbm, ⟨18, _⟩ => ⟨S1x1x1x128, .f32⟩
  | .hbm, ⟨19, _⟩ => ⟨S8x32x512x128, .f32⟩
  | .hbm, ⟨20, _⟩ => ⟨S8x32x512x128, .f32⟩
  | .hbm, ⟨21, _⟩ => ⟨S8x32x512x128, .f32⟩
  | .hbm, ⟨22, _⟩ => ⟨S8x32x512x512, .f32⟩
  | .hbm, ⟨23, _⟩ => ⟨S_, .f32⟩
  | .hbm, ⟨24, _⟩ => ⟨S8x32x512x512, .f32⟩
  | .hbm, ⟨25, _⟩ => ⟨S8x32x512x512, .f32⟩
  | .hbm, ⟨26, _⟩ => ⟨S_, .f32⟩
  | .hbm, ⟨27, _⟩ => ⟨S8x32x512, .f32⟩
  | .hbm, ⟨28, _⟩ => ⟨S_, .f32⟩
  | .hbm, ⟨29, _⟩ => ⟨S8x32x512, .f32⟩
  | .hbm, ⟨30, _⟩ => ⟨S8x32x512, .f32⟩
  | .hbm, ⟨31, _⟩ => ⟨S8x32x512x1, .f32⟩
  | .hbm, ⟨32, _⟩ => ⟨S8x32x512x512, .f32⟩
  | .hbm, ⟨33, _⟩ => ⟨S8x32x512x512, .f32⟩
  | .hbm, ⟨34, _⟩ => ⟨S8x32x512x512, .f32⟩
  | .hbm, ⟨35, _⟩ => ⟨S_, .f32⟩
  | .hbm, ⟨36, _⟩ => ⟨S8x32x512, .f32⟩
  | .hbm, ⟨37, _⟩ => ⟨S8x32x512x1, .f32⟩
  | .hbm, ⟨38, _⟩ => ⟨S8x32x512x512, .f32⟩
  | .hbm, ⟨39, _⟩ => ⟨S8x32x512x512, .f32⟩
  | .hbm, ⟨40, _⟩ => ⟨S8x32x512x128, .f32⟩
  | .hbm, ⟨41, _⟩ => ⟨S_, .f32⟩
  | .hbm, ⟨42, _⟩ => ⟨S8x32x128, .f32⟩
  | .hbm, ⟨43, _⟩ => ⟨S_, .f32⟩
  | .hbm, ⟨44, _⟩ => ⟨S8x32x128, .f32⟩
  | .hbm, ⟨45, _⟩ => ⟨S8x32x128, .f32⟩
  | _, _ => ⟨S8x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]

class Facts₀ : Prop where
  bcast_S8x32x512_S8x32x512x1_0_1_2 : S8x32x512.BroadcastsInDim S8x32x512x1 (![0, 1, 2] : Fin 3 → Fin S8x32x512x1.rank)
  shapeCasts_S1x128_S128 : S1x128.ShapeCasts S128
  bcast_S128_S1x1x1x128_3 : S128.BroadcastsInDim S1x1x1x128 (![3] : Fin 1 → Fin S1x1x1x128.rank)
  bcast_S8x32x512x1_S8x32x512x128_0_1_2_3 : S8x32x512x1.BroadcastsInDim S8x32x512x128 (![0, 1, 2, 3] : Fin 4 → Fin S8x32x512x128.rank)
  bcast_S1x1x1x128_S8x32x512x128_0_1_2_3 : S1x1x1x128.BroadcastsInDim S8x32x512x128 (![0, 1, 2, 3] : Fin 4 → Fin S8x32x512x128.rank)
  bcast_S_S8x32x512x512 : S_.BroadcastsInDim S8x32x512x512 (![] : Fin 0 → Fin S8x32x512x512.rank)
  reducesTo_S8x32x512x512_S8x32x512_d3 : S8x32x512x512.ReducesTo [3] S8x32x512
  h_S_ : 0 < S_.numel
  bcast_S_S8x32x512 : S_.BroadcastsInDim S8x32x512 (![] : Fin 0 → Fin S8x32x512.rank)
  bcast_S8x32x512x1_S8x32x512x512_0_1_2_3 : S8x32x512x1.BroadcastsInDim S8x32x512x512 (![0, 1, 2, 3] : Fin 4 → Fin S8x32x512x512.rank)
  reducesTo_S8x32x512x128_S8x32x128_d2 : S8x32x512x128.ReducesTo [2] S8x32x128
  bcast_S_S8x32x128 : S_.BroadcastsInDim S8x32x128 (![] : Fin 0 → Fin S8x32x128.rank)
  dot_S8x32x512x128_S8x32x512x128_S8x32x512x512_3_3_2_2_01_01_wf : DotDims.WF S8x32x512x128 S8x32x512x128 S8x32x512x512 [3] [3] [2] [2] [0, 1] [0, 1]
  dot_S8x32x512x512_S8x32x512x128_S8x32x512x128_3_2_2_3_01_01_wf : DotDims.WF S8x32x512x512 S8x32x512x128 S8x32x512x128 [3] [2] [2] [3] [0, 1] [0, 1]

variable [Facts₀]

def dot_S8x32x512x128_S8x32x512x128_S8x32x512x512_3_3_2_2_01_01 : DotDims S8x32x512x128 S8x32x512x128 S8x32x512x512 where
  lhsContracting := [3]
  rhsContracting := [3]
  lhsNonContracting := [2]
  rhsNonContracting := [2]
  lhsBatch := [0, 1]
  rhsBatch := [0, 1]
  wf := dot_S8x32x512x128_S8x32x512x128_S8x32x512x512_3_3_2_2_01_01_wf
def dot_S8x32x512x512_S8x32x512x128_S8x32x512x128_3_2_2_3_01_01 : DotDims S8x32x512x512 S8x32x512x128 S8x32x512x128 where
  lhsContracting := [3]
  rhsContracting := [2]
  lhsNonContracting := [2]
  rhsNonContracting := [3]
  lhsBatch := [0, 1]
  rhsBatch := [0, 1]
  wf := dot_S8x32x512x512_S8x32x512x128_S8x32x512x128_3_2_2_3_01_01_wf

class Facts : Prop extends Facts₀ where

variable [Facts]
-- ==== Proof.Consts.lean ====
/-
  The float constants the two programs spell, as the extended reals their bit patterns denote: the zero a sum starts
  from, the negative infinity a maximum starts from, the row length 512 the mean divides by, and the reference's
  divisor, the single-precision value nearest the square root of 128, which is the dyadic rational 11863283 / 2^20.
-/
import Idealize.ShloMosaic.PureOps.Ideal
import Idealize.ShloMosaic.PureOps.Ideal.Laws

noncomputable section

namespace Cert.Attn.Consts

open Idealize.ShloMosaic

/-- The pattern of negative infinity denotes the bottom element. -/
theorem ofBits_neg_inf : Ideal.ofBits .f32 0xFF800000#32 = ⊥ := by
  simp [Ideal.ofBits, Ideal.ieee]

/-- The pattern of 512.0 denotes the real number 512. -/
theorem ofBits_512 : Ideal.ofBits .f32 0x44000000#32 = ((512 : ℝ) : EReal) := by
  simp [Ideal.ofBits, Ideal.ieee, -EReal.coe_mul]; norm_num

/-- The reference's divisor denotes the rational 11863283 / 1048576. -/
theorem ofBits_scale : Ideal.ofBits .f32 0x413504F3#32 = ((11863283 / 1048576 : ℝ) : EReal) := by
  simp [Ideal.ofBits, Ideal.ieee, -EReal.coe_mul]; norm_num

end Cert.Attn.Consts

end
-- ==== Proof.LibRealFold.lean ====
/-
  Extended reals that are real numbers, and folds of `max` over a nonempty finite set — a general module: it depends
  on Mathlib only.
  An extended real "is real" when it is the image of a real number. Products, sums and finite sums of such are such
  (`isReal_mul`, `isReal_add`, `isReal_sum`), and so is the fold of `max` from the bottom element over a nonempty
  finite family of them (`fold_max_isReal`).
  A monotone map commutes with the fold of `max` from the bottom element over a nonempty finite family
  (`fold_max_map`): the largest image is the image of the largest.
-/
import Mathlib.Data.EReal.Inv
import Mathlib.Data.Finset.Fold
import Mathlib.Algebra.BigOperators.Group.Finset.Basic

namespace Cert.RealFold

open scoped BigOperators

/-- The product of two real numbers, read in the extended reals, is a real number. -/
theorem isReal_mul {a b : EReal} (ha : ∃ r : ℝ, a = (r : EReal)) (hb : ∃ r : ℝ, b = (r : EReal)) :
    ∃ r : ℝ, a * b = (r : EReal) := by
  obtain ⟨r, rfl⟩ := ha
  obtain ⟨q, rfl⟩ := hb
  exact ⟨r * q, (EReal.coe_mul r q).symm⟩

/-- The sum of two real numbers, read in the extended reals, is a real number. -/
theorem isReal_add {a b : EReal} (ha : ∃ r : ℝ, a = (r : EReal)) (hb : ∃ r : ℝ, b = (r : EReal)) :
    ∃ r : ℝ, a + b = (r : EReal) := by
  obtain ⟨r, rfl⟩ := ha
  obtain ⟨q, rfl⟩ := hb
  exact ⟨r + q, (EReal.coe_add r q).symm⟩

/-- A finite sum of real numbers, read in the extended reals, is a real number. -/
theorem isReal_sum {ι : Type*} (s : Finset ι) (f : ι → EReal) (hf : ∀ j ∈ s, ∃ r : ℝ, f j = (r : EReal)) :
    ∃ r : ℝ, ∑ j ∈ s, f j = (r : EReal) :=
  Finset.sum_induction f (fun z => ∃ r : ℝ, z = (r : EReal)) (fun _ _ => isReal_add) ⟨0, EReal.coe_zero.symm⟩ hf

/-- A monotone map commutes with the fold of `max` from the bottom element over a nonempty finite family: the
    largest of the images is the image of the largest. (Over the empty family the two sides are `⊥` and the image of
    `⊥`, which need not agree.) -/
theorem fold_max_map {ι : Type*} {g : EReal → EReal} (hg : Monotone g) (f : ι → EReal) {s : Finset ι}
    (hs : s.Nonempty) : s.fold max ⊥ (fun j => g (f j)) = g (s.fold max ⊥ f) := by
  induction hs using Finset.Nonempty.cons_induction with
  | singleton a => rw [Finset.fold_singleton, Finset.fold_singleton, max_bot_right, max_bot_right]
  | cons a s ha hs ih => rw [Finset.fold_cons, Finset.fold_cons, ih, hg.map_max]

/-- The fold of `max` from the bottom element over a nonempty finite family of real numbers is a real number. -/
theorem fold_max_isReal {ι : Type*} (f : ι → EReal) {s : Finset ι} (hs : s.Nonempty)
    (hf : ∀ j ∈ s, ∃ r : ℝ, f j = (r : EReal)) : ∃ r : ℝ, s.fold max ⊥ f = (r : EReal) := by
  induction hs using Finset.Nonempty.cons_induction with
  | singleton a =>
    obtain ⟨r, hr⟩ := hf a (Finset.mem_singleton_self a)
    exact ⟨r, by rw [Finset.fold_singleton, max_bot_right, hr]⟩
  | cons a s ha hs ih =>
    obtain ⟨r, hr⟩ := hf a (Finset.mem_cons_self a s)
    obtain ⟨q, hq⟩ := ih fun j hj => hf j (Finset.mem_cons.mpr (Or.inr hj))
    refine ⟨max r q, ?_⟩
    rw [Finset.fold_cons, hr, hq]
    exact (EReal.coe_strictMono.monotone.map_max).symm

end Cert.RealFold
-- ==== Proof.RowSpec.lean ====
/-
  One row of the computation, as a function on the extended reals, in the two arrangements the programs use, and the
  proof that the arrangements agree on real inputs.

  A row is a vector x over positions, two weight vectors q and k over the model dimension, one entry w of the third weight
  vector, a scale and the row length n.
  * The reference forms the score of positions (f, g) as the contraction over d of (x f * q d) * (x g * k d), divided by
    the scale D; takes the softmax of each score row; contracts the weights against x g * w over g; and averages over f.
  * The kernel forms the score as (x f * ((sum over d of q d * k d) * a)) * x g with a the reciprocal of D; takes the same
    softmax; averages the weights over f first; contracts the averages against x over g; and multiplies by w last.
  On real inputs every intermediate value is a real number (the largest score of a row is real because a row is not
  empty, so every exponential is a positive real and every normaliser a positive real), and the two results are the
  same real number by distributivity and by exchanging the two finite sums.
-/
import Mathlib.Analysis.SpecialFunctions.Exp
import Idealize.ShloMosaic.PureOps.Ideal
import proofs.«161998_j34471407518351_2_alg».proof.Proof.LibRealFold

noncomputable section

namespace Cert.Attn

open Idealize.ShloMosaic
open scoped BigOperators

variable {ι κ : Type} [Fintype ι] [Fintype κ]

/-- The softmax weight of entry g of a row of scores s: the exponential of the score less the row's largest score,
    divided by the sum of those exponentials over the row. -/
def softmaxE (s : ι → EReal) (g : ι) : EReal :=
  Ideal.div (Ideal.exp (s g - Finset.univ.fold max ⊥ s)) (∑ g', Ideal.exp (s g' - Finset.univ.fold max ⊥ s))

/-- The kernel's score of positions (f, g): the scale is folded into x f before the outer product. -/
def kerScore (x : ι → EReal) (q k : κ → EReal) (a : EReal) (f g : ι) : EReal :=
  (x f * ((∑ d, q d * k d) * a)) * x g

/-- The reference's score of positions (f, g): the contraction of the two projected rows, divided by the scale. -/
def refScore (x : ι → EReal) (q k : κ → EReal) (D : EReal) (f g : ι) : EReal :=
  Ideal.div (∑ d, (x f * q d) * (x g * k d)) D

/-- The kernel's result entry: softmax weights averaged over the query position, contracted with x, times w. -/
def kerRow (x : ι → EReal) (q k : κ → EReal) (w a n : EReal) : EReal :=
  (∑ g, Ideal.div (∑ f, softmaxE (kerScore x q k a f) g) n * x g) * w

/-- The reference's result entry: softmax weights contracted with the projected values, averaged over the query position. -/
def refRow (x : ι → EReal) (q k : κ → EReal) (w D n : EReal) : EReal :=
  Ideal.div (∑ f, ∑ g, softmaxE (refScore x q k D f) g * (x g * w)) n

/-- A finite sum of real numbers read in the extended reals is the real sum. -/
theorem coe_sum {α : Type} (s : Finset α) (f : α → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient of two reals, the divisor not zero, is the real quotient. -/
theorem div_real (a b : ℝ) (hb : b ≠ 0) : Ideal.div (a : EReal) (b : EReal) = ((a * (1 / b) : ℝ) : EReal) := by
  rw [Ideal.div_coe hb, ← EReal.coe_mul]

/-- The real score both arrangements compute. -/
def scoreR (x : ι → ℝ) (q k : κ → ℝ) (D : ℝ) (f g : ι) : ℝ := x f * x g * (∑ d, q d * k d) * (1 / D)

theorem kerScore_real (x : ι → ℝ) (q k : κ → ℝ) (D : ℝ) (f g : ι) :
    kerScore (fun i => (x i : EReal)) (fun d => (q d : EReal)) (fun d => (k d : EReal)) ((1 / D : ℝ) : EReal) f g
      = (scoreR x q k D f g : EReal) := by
  unfold kerScore scoreR
  simp only [← EReal.coe_mul, coe_sum]
  congr 1
  ring

theorem refScore_real (x : ι → ℝ) (q k : κ → ℝ) (D : ℝ) (hD : D ≠ 0) (f g : ι) :
    refScore (fun i => (x i : EReal)) (fun d => (q d : EReal)) (fun d => (k d : EReal)) (D : EReal) f g
      = (scoreR x q k D f g : EReal) := by
  unfold refScore scoreR
  simp only [← EReal.coe_mul, coe_sum]
  rw [div_real _ _ hD]
  congr 1
  have h : (∑ d, x f * q d * (x g * k d)) = x f * x g * ∑ d, q d * k d := by
    rw [Finset.mul_sum]; exact Finset.sum_congr rfl fun d _ => by ring
  rw [h]

/-- The softmax weights of a nonempty row of real scores are real numbers. -/
theorem softmaxE_real [Nonempty ι] (r : ι → ℝ) :
    ∃ A : ι → ℝ, ∀ g, softmaxE (fun g => (r g : EReal)) g = (A g : EReal) := by
  obtain ⟨M, hM⟩ := Cert.RealFold.fold_max_isReal (fun g => (r g : EReal)) (Finset.univ_nonempty (α := ι))
    (fun j _ => ⟨r j, rfl⟩)
  have hL : (∑ g', Real.exp (r g' - M)) ≠ 0 :=
    (Finset.sum_pos (fun g _ => Real.exp_pos _) Finset.univ_nonempty).ne'
  refine ⟨fun g => Real.exp (r g - M) * (1 / ∑ g', Real.exp (r g' - M)), fun g => ?_⟩
  unfold softmaxE
  rw [hM]
  simp only [← EReal.coe_sub, Ideal.exp_coe, coe_sum]
  exact div_real _ _ hL

/-- On real inputs, with a nonzero scale and a nonzero row length, the kernel's arrangement with the reciprocal scale and
    the reference's arrangement with the scale give the same result. -/
theorem kerRow_eq_refRow [Nonempty ι] (x : ι → ℝ) (q k : κ → ℝ) (w D N : ℝ) (hD : D ≠ 0) (hN : N ≠ 0) :
    kerRow (fun i => (x i : EReal)) (fun d => (q d : EReal)) (fun d => (k d : EReal)) (w : EReal) ((1 / D : ℝ) : EReal) (N : EReal)
      = refRow (fun i => (x i : EReal)) (fun d => (q d : EReal)) (fun d => (k d : EReal)) (w : EReal) (D : EReal) (N : EReal) := by
  have hk : ∀ f, kerScore (fun i => (x i : EReal)) (fun d => (q d : EReal)) (fun d => (k d : EReal)) ((1 / D : ℝ) : EReal) f
      = fun g => (scoreR x q k D f g : EReal) := fun f => funext fun g => kerScore_real x q k D f g
  have hr : ∀ f, refScore (fun i => (x i : EReal)) (fun d => (q d : EReal)) (fun d => (k d : EReal)) (D : EReal) f
      = fun g => (scoreR x q k D f g : EReal) := fun f => funext fun g => refScore_real x q k D hD f g
  choose A hA using fun f => softmaxE_real (scoreR x q k D f)
  unfold kerRow refRow
  simp only [hk, hr, hA, ← EReal.coe_mul, coe_sum]
  rw [div_real _ _ hN]
  simp only [div_real _ _ hN, ← EReal.coe_mul, coe_sum]
  congr 1
  simp only [Finset.sum_mul]
  rw [Finset.sum_comm]
  exact Finset.sum_congr rfl fun f _ => Finset.sum_congr rfl fun g _ => by ring

end Cert.Attn

end
-- ==== Proof.Finite.lean ====
/-
  The precondition read back: if the finiteness predicate of the four argument arrays is all ones, every entry of every
  argument is a real number. The predicate is a conjunction of four "all entries have absolute value below +infinity";
  an extended real whose absolute value max x (-x) is below the top element is neither infinity, hence a real.
-/
import proofs.«161998_j34471407518351_2_alg».proof.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

namespace Cert.Attn.Finite

open Idealize.ShloMosaic

/-- The pattern of positive infinity denotes the top element. -/
theorem ofBits_pos_inf : Ideal.ofBits .f32 0x7F800000#32 = ⊤ := by
  simp [Ideal.ofBits, Ideal.ieee]

/-- An extended real whose absolute value compares below positive infinity is a real number. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  rw [Ideal.cmpf_def, Ideal.hostAbsf_def, Ideal.absf_def, Ideal.ofBits_def, ofBits_pos_inf] at h
  induction x using EReal.rec with
  | bot => exact absurd h (by simp [Ideal.cmp])
  | top => exact absurd h (by simp [Ideal.cmp])
  | coe r => exact ⟨r, rfl⟩

instance : Subsingleton Cert.Pre_finite_inputs.S_.Idx := ⟨fun a b => funext fun d => d.elim0⟩

/-- The finiteness predicate all ones: every entry of each of the four arguments is a real number. -/
theorem real_of_fn [Cert.Pre_finite_inputs.Facts] (a0 : FVec Ideal Cert.Pre_finite_inputs.S8x32x512 .f32)
    (a1 a2 a3 : FVec Ideal Cert.Pre_finite_inputs.S1x128 .f32)
    (h : Cert.Pre_finite_inputs.fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h (fun d => d.elim0)
  dsimp only [Cert.Pre_finite_inputs.fn, Cert.Pre_finite_inputs.fn_part1, andi] at h0
  obtain ⟨h012, e3⟩ := IntOp.andi_eq_one.1 h0
  obtain ⟨h01, e2⟩ := IntOp.andi_eq_one.1 h012
  obtain ⟨e0, e1⟩ := IntOp.andi_eq_one.1 h01
  refine ⟨fun i => real_of_abs_lt _ ?_, fun i => real_of_abs_lt _ ?_, fun i => real_of_abs_lt _ ?_, fun i => real_of_abs_lt _ ?_⟩
  · exact Host.reduce_andi_all _ _ _ _ _ e0 i
  · exact Host.reduce_andi_all _ _ _ _ _ e1 i
  · exact Host.reduce_andi_all _ _ _ _ _ e2 i
  · exact Host.reduce_andi_all _ _ _ _ _ e3 i

end Cert.Attn.Finite

end
-- ==== Proof.LibKeepdims.lean ====
/-
  Layout steps and single-axis reductions of small-rank arrays read at an index given by coordinates — a general
  module: every lemma is general in the extents, and the layout lemmas in the element type.
  Layout:
  • `shapeCast_a_a1_apply`: a vector recast as a column, `[a] → [a, 1]`, at `(i, u)` is the vector at `i`;
  • `broadcastTo_a1_ab_apply`: a column broadcast across the lanes, `[a, 1] → [a, b]`, at `(i, j)` is the column at `(i, 0)`;
  • `broadcastTo_11_ab_apply`: a one-entry matrix broadcast to `[a, b]` reads its one entry everywhere;
  • `shapeCast_ab_a1b_apply`: a matrix given a middle unit axis, `[a, b] → [a, 1, b]`, at `(i, u, k)` is the matrix at `(i, k)`;
  • `broadcastTo_a1c_abc_apply`: `[a, 1, c] → [a, b, c]` at `(i, j, k)` is the operand at `(i, 0, k)`.
  Reductions over one axis, at the exact values: the source index over a result index with coordinate `k` on the reduced
  axis (`lift_last_ab`, `lift_last_abc`, `lift_mid_abc`), and with them
  • `multiReduction_add_last_ab`, `multiReduction_add_last_abc`, `multiReduction_add_mid_abc`: an add reduction read as the
    sum over the reduced coordinate;
  • `multiReduction_max_last_abc`: a maximum reduction along the last axis read as the fold of `max` from the accumulator.
-/
import Idealize.ShloMosaic.Lib.Pipeline.Value
import Idealize.ShloMosaic.Lib.ValueIdx
import Idealize.ShloMosaic.Lib.ValueLayout
import Idealize.ShloMosaic.PureOps.Reduce
import Idealize.ShloMosaic.PureOps.Ideal.Laws

namespace Cert.LibKeepdims

open Idealize.ShloMosaic Idealize.ShloMosaic.ValueIdx

section Layout
variable {α : Type}

/-- A vector recast as a column reads, at `(i, u)`, its entry `i`: the unit axis contributes nothing to the row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast across the lanes reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- A one-entry matrix broadcast to `[a, b]` reads its one entry at every index. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ =>
    show (0 : ℕ) = if (1 : ℕ) = 1 then 0 else i.val
    rw [if_pos rfl]
  | ⟨1, _⟩ =>
    show (0 : ℕ) = if (1 : ℕ) = 1 then 0 else j.val
    rw [if_pos rfl]

/-- A matrix given a middle unit axis reads, at `(i, u, k)`, the matrix at `(i, k)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (k : Fin b) :
    shapeCast ⟨3, ![a, 1, b]⟩ x h (ix3 i u k) = x (ix2 i k) :=
  shapeCast_apply x h _ _ (by
    have hu : u.val = 0 := by omega
    rw [Shape.rowMajor_val_three, Shape.rowMajor_val_two]
    show i.val * b + k.val = (i.val * 1 + u.val) * b + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

end Layout

section Lift

/-- Reducing `[a, b]` over its last axis: over the result index `i`, coordinate `k` on the reduced axis is `(i, k)`. -/
theorem lift_last_ab {a b : ℕ} (h : (⟨2, ![a, b]⟩ : Shape).Reduces [1] ⟨1, ![a]⟩) (i : Fin a) (k : Fin b) :
    h.lift (ix1 i) k = ix2 i k := by
  funext ax
  apply Fin.ext
  match ax with
  | ⟨0, _⟩ => rfl
  | ⟨1, _⟩ => rfl

/-- Reducing `[a, b, c]` over its last axis: over `(i, j)`, coordinate `k` on the reduced axis is `(i, j, k)`. -/
theorem lift_last_abc {a b c : ℕ} (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Reducing `[a, b, c]` over its middle axis: over `(i, k)`, coordinate `j` on the reduced axis is `(i, j, k)`. -/
theorem lift_mid_abc {a b c : ℕ} (h : (⟨3, ![a, b, c]⟩ : Shape).Reduces [1] ⟨2, ![a, c]⟩) (i : Fin a) (k : Fin c) (j : Fin b) :
    h.lift (ix2 i k) j = ix3 i j k := by
  funext ax
  apply Fin.ext
  match ax with
  | ⟨0, _⟩ => rfl
  | ⟨1, _⟩ => rfl
  | ⟨2, _⟩ => rfl

end Lift

section Reductions
variable {φ : FTy}

/-- An add reduction of `[a, b]` along its last axis, at the exact values, read at `i`: the row's sum. -/
theorem multiReduction_add_last_ab {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_last_ab h i k))

/-- An add reduction of `[a, b, c]` along its last axis, at the exact values, read at `(i, j)`. -/
theorem multiReduction_add_last_abc {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_last_abc h i j k))

/-- An add reduction of `[a, b, c]` along its middle axis, at the exact values, read at `(i, k)`. -/
theorem multiReduction_add_mid_abc {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (lift_mid_abc h i k j))

/-- A maximum reduction of `[a, b, c]` along its last axis, at the exact values, read at `(i, j)`: the fold of `max` from
    the accumulator's value over the row. -/
theorem multiReduction_max_last_abc {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) :=
  (Ideal.multiReduction_maximumf_single src acc h hφ hacc (ix2 i j)).trans
    (congrArg (fun f => (Finset.univ : Finset (Fin c)).fold max (Ideal.ofBits φ acc) f)
      (funext fun k => congrArg src (lift_last_abc h i j k)))

end Reductions

end Cert.LibKeepdims
-- ==== Proof.LibCubeLayout.lean ====
/-
  Two matrices laid out as faces of a cube, read at an index given by coordinates.
  An outer combination `f (x i j) (y j k)` of an `[a, b]` matrix `x` and a `[b, c]` matrix `y` is computed on vectors by
  giving `x` a trailing unit axis (`[a, b] → [a, b, 1]`) and `y` a leading one (`[b, c] → [1, b, c]`), broadcasting both
  to `[a, b, c]`, combining pointwise, and reducing over the middle axis. The lemmas here read each layout step at
  `(i, j, k)`, general in the extents and the element type:
  • `shapeCast_ab_ab1_apply`: the cast `[a, b] → [a, b, 1]` at `(i, j, u)` is the matrix at `(i, j)`;
  • `broadcastTo_ab1_abc_apply`: `[a, b, 1] → [a, b, c]` at `(i, j, k)` is the operand at `(i, j, 0)`;
  • `broadcastTo_1bc_abc_apply`: `[1, b, c] → [a, b, c]` at `(i, j, k)` is the operand at `(0, j, k)`;
  • `lift_mid_abc`: reducing `[a, b, c]` over its middle axis, the source index over the result index `(i, k)` with
    coordinate `j` on the reduced axis is `(i, j, k)`.
  (The leading-unit cast `[b, c] → [1, b, c]` is the library's `shapeCast_ab_1ab_apply`.)
-/
import Idealize.ShloMosaic.Lib.Pipeline.Value
import Idealize.ShloMosaic.Lib.ValueIdx
import Idealize.ShloMosaic.PureOps.Reduce

namespace Cert.LibCubeLayout

open Idealize.ShloMosaic Idealize.ShloMosaic.ValueIdx

variable {α : Type}

/-- An `[a, b]` array cast to `[a, b, 1]` reads, at `(i, j, u)`, the operand at `(i, j)`: the two indices have the same
    row-major position, the unit axis contributing nothing. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

/-- Reducing `[a, b, c]` over its middle axis: the source index over the result index `(i, k)` whose coordinate on the
    reduced axis is `j` is `(i, j, k)`. -/
theorem lift_mid_abc {a b c : ℕ} (h : (⟨3, ![a, b, c]⟩ : Shape).Reduces [1] ⟨2, ![a, c]⟩) (i : Fin a) (k : Fin c)
    (j : Fin b) : h.lift (ix2 i k) j = ix3 i j k := by
  funext ax
  apply Fin.ext
  match ax with
  | ⟨0, _⟩ => rfl
  | ⟨1, _⟩ => rfl
  | ⟨2, _⟩ => rfl

end Cert.LibCubeLayout
-- ==== Proof.KernelRow.lean ====
/-
  The kernel body's one stored value, read at an entry (p, d) of the output block: it is the kernel's arrangement of the
  row computation (RowSpec's `kerRow`) applied to row p of the loaded block of x, the two loaded weight rows, and entry d
  of the third weight row.
  The body's arithmetic is restated here as a chain of named stages, one per vector operation, so that each stage can be
  read at an index by one lemma: the scaled row (stage 11), the [8, 512, 512] score cube (16), its row maxima (17), the
  exponentials (21), their row sums (22), the softmax weights (25), their column sums over the query axis (26), the mean
  (28), the contraction with x (30) and the final outer product with the value weights (34).
-/
import proofs.«161998_j34471407518351_2_alg».proof.Proof.Gen.KernelIdeal.Skeleton
import proofs.«161998_j34471407518351_2_alg».proof.Proof.RowSpec
import proofs.«161998_j34471407518351_2_alg».proof.Proof.Consts
import proofs.«161998_j34471407518351_2_alg».proof.Proof.LibKeepdims
import proofs.«161998_j34471407518351_2_alg».proof.Proof.LibCubeLayout
import Idealize.ShloMosaic.Lib.ValueIdx
import Idealize.ShloMosaic.Lib.ValueLayout
import Idealize.ShloMosaic.Lib.Pipeline.Value

noncomputable section

namespace Cert.Attn.KernelRow

open Idealize.ShloMosaic Idealize.ShloMosaic.ValueIdx Cert.KernelIdeal Cert.KernelIdeal.Gen
open Cert.LibKeepdims Cert.LibCubeLayout

/-- The reciprocal scale as the kernel spells it: a named constant. -/
abbrev aK : EReal := Named.named (F := Ideal) κ "inv_sqrt_d" (φ := .f32) 0x3DB504F3#32
/-- The row length as the kernel spells it. -/
abbrev nK : EReal := Ideal.ofBits .f32 0x44000000#32

variable (v0 : FVec Ideal S8x512 .f32) (v2 v3 v4 : FVec Ideal S1x128 .f32)

def s1 : FVec Ideal S8x512 .f32 := shapeCast S8x512 v0 shapeCasts_S8x512_S8x512
def s5 : FVec Ideal S1x128 .f32 := mulf v2 v3
def s6 : FVec Ideal S1 .f32 := multiReduction .add [1] S1 (s5 v2 v3) 0x00000000#32 reduces_S1x128_S1 (.inl rfl) rfl
def s7 : FVec Ideal S1x1 .f32 := shapeCast S1x1 (s6 v2 v3) shapeCasts_S1_S1x1
def s9 : FVec Ideal S1x1 .f32 := mulf (s7 v2 v3) (broadcast S1x1 (Named.named κ "inv_sqrt_d" 0x3DB504F3#32))
def s10 : FVec Ideal S8x512 .f32 := broadcastTo S8x512 (s9 v2 v3) broadcasts_S1x1_S8x512
def s11 : FVec Ideal S8x512 .f32 := mulf (s1 v0) (s10 v2 v3)
def s12 : FVec Ideal S8x512x1 .f32 := shapeCast S8x512x1 (s11 v0 v2 v3) shapeCasts_S8x512_S8x512x1
def s13 : FVec Ideal S8x1x512 .f32 := shapeCast S8x1x512 (s1 v0) shapeCasts_S8x512_S8x1x512
def s14 : FVec Ideal S8x512x512 .f32 := broadcastTo S8x512x512 (s12 v0 v2 v3) broadcasts_S8x512x1_S8x512x512
def s15 : FVec Ideal S8x512x512 .f32 := broadcastTo S8x512x512 (s13 v0) broadcasts_S8x1x512_S8x512x512
def s16 : FVec Ideal S8x512x512 .f32 := mulf (s14 v0 v2 v3) (s15 v0)
def s17 : FVec Ideal S8x512 .f32 := multiReduction .maximumf [2] S8x512 (s16 v0 v2 v3) 0xFF800000#32 reduces_S8x512x512_S8x512 (.inl rfl) rfl
def s18 : FVec Ideal S8x512x1 .f32 := shapeCast S8x512x1 (s17 v0 v2 v3) shapeCasts_S8x512_S8x512x1
def s19 : FVec Ideal S8x512x512 .f32 := broadcastTo S8x512x512 (s18 v0 v2 v3) broadcasts_S8x512x1_S8x512x512
def s20 : FVec Ideal S8x512x512 .f32 := subf (s16 v0 v2 v3) (s19 v0 v2 v3)
def s21 : FVec Ideal S8x512x512 .f32 := exp (s20 v0 v2 v3)
def s22 : FVec Ideal S8x512 .f32 := multiReduction .add [2] S8x512 (s21 v0 v2 v3) 0x00000000#32 reduces_S8x512x512_S8x512 (.inl rfl) rfl
def s23 : FVec Ideal S8x512x1 .f32 := shapeCast S8x512x1 (s22 v0 v2 v3) shapeCasts_S8x512_S8x512x1
def s24 : FVec Ideal S8x512x512 .f32 := broadcastTo S8x512x512 (s23 v0 v2 v3) broadcasts_S8x512x1_S8x512x512
def s25 : FVec Ideal S8x512x512 .f32 := divf (s21 v0 v2 v3) (s24 v0 v2 v3)
def s26 : FVec Ideal S8x512 .f32 := multiReduction .add [1] S8x512 (s25 v0 v2 v3) 0x00000000#32 reduces_S8x512x512_S8x512_2 (.inl rfl) rfl
def s28 : FVec Ideal S8x512 .f32 := divf (s26 v0 v2 v3) (broadcast S8x512 (Scalar.ofBits .f32 0x44000000#32))
def s29 : FVec Ideal S8x512 .f32 := mulf (s28 v0 v2 v3) (s1 v0)
def s30 : FVec Ideal S8 .f32 := multiReduction .add [1] S8 (s29 v0 v2 v3) 0x00000000#32 reduces_S8x512_S8 (.inl rfl) rfl
def s31 : FVec Ideal S8x1 .f32 := shapeCast S8x1 (s30 v0 v2 v3) shapeCasts_S8_S8x1
def s32 : FVec Ideal S8x128 .f32 := broadcastTo S8x128 (s31 v0 v2 v3) broadcasts_S8x1_S8x128
def s33 : FVec Ideal S8x128 .f32 := broadcastTo S8x128 v4 broadcasts_S1x128_S8x128
def s34 : FVec Ideal S8x128 .f32 := mulf (s32 v0 v2 v3) (s33 v4)

/-- The body's stored value is the last stage. -/
theorem pay_eq : k0_pay1 (F := Ideal) v0 v2 v3 v4 = s34 v0 v2 v3 v4 := rfl

/-! ### The stages read at an index -/

theorem s1_eq : s1 v0 = v0 := shapeCast_self _ _

/-- The contraction of the two weight rows. -/
theorem s6_apply : s6 v2 v3 (ix1 (0 : Fin 1)) = ∑ d : Fin 128, v2 (ix2 0 d) * v3 (ix2 0 d) :=
  multiReduction_add_last_ab (s5 v2 v3) _ _ _ _ 0

/-- The scalar the kernel scales x by: the contraction of the two weight rows times the reciprocal scale. -/
theorem s9_apply : s9 v2 v3 (ix2 (0 : Fin 1) (0 : Fin 1)) = (∑ d : Fin 128, v2 (ix2 0 d) * v3 (ix2 0 d)) * aK := by
  unfold s9
  rw [mulf_apply, broadcast_apply]
  unfold s7
  rw [shapeCast_a_a1_apply, s6_apply]

theorem s11_apply (p : Fin 8) (f : Fin 512) :
    s11 v0 v2 v3 (ix2 p f) = v0 (ix2 p f) * ((∑ d : Fin 128, v2 (ix2 0 d) * v3 (ix2 0 d)) * aK) := by
  unfold s11
  rw [mulf_apply, s1_eq]
  unfold s10
  rw [broadcastTo_11_ab_apply, s9_apply]

/-- The score cube at (p, f, g) is the kernel's score of positions (f, g) of row p. -/
theorem s16_apply (p : Fin 8) (f g : Fin 512) :
    s16 v0 v2 v3 (ix3 p f g)
      = kerScore (fun i : Fin 512 => v0 (ix2 p i)) (fun d : Fin 128 => v2 (ix2 0 d)) (fun d : Fin 128 => v3 (ix2 0 d)) aK f g := by
  unfold s16
  rw [mulf_apply]
  unfold s14 s15
  rw [broadcastTo_ab1_abc_apply, broadcastTo_a1c_abc_apply]
  unfold s12 s13
  rw [shapeCast_ab_ab1_apply, shapeCast_ab_a1b_apply, s11_apply, s1_eq]
  rfl

theorem s17_apply (p : Fin 8) (f : Fin 512) :
    s17 v0 v2 v3 (ix2 p f) = (Finset.univ : Finset (Fin 512)).fold max ⊥ (fun g => s16 v0 v2 v3 (ix3 p f g)) :=
  (multiReduction_max_last_abc (s16 v0 v2 v3) _ _ _ _ p f).trans (by rw [Cert.Attn.Consts.ofBits_neg_inf])

theorem s21_apply (p : Fin 8) (f g : Fin 512) :
    s21 v0 v2 v3 (ix3 p f g)
      = Ideal.exp (s16 v0 v2 v3 (ix3 p f g) - (Finset.univ : Finset (Fin 512)).fold max ⊥ (fun g' => s16 v0 v2 v3 (ix3 p f g'))) := by
  unfold s21 s20
  show Ideal.exp (s16 v0 v2 v3 (ix3 p f g) - s19 v0 v2 v3 (ix3 p f g)) = _
  unfold s19
  rw [broadcastTo_ab1_abc_apply]
  unfold s18
  rw [shapeCast_ab_ab1_apply, s17_apply]

theorem s22_apply (p : Fin 8) (f : Fin 512) :
    s22 v0 v2 v3 (ix2 p f) = ∑ g : Fin 512, s21 v0 v2 v3 (ix3 p f g) :=
  multiReduction_add_last_abc (s21 v0 v2 v3) _ _ _ _ p f

theorem s26_apply (p : Fin 8) (g : Fin 512) :
    s26 v0 v2 v3 (ix2 p g) = ∑ f : Fin 512, s25 v0 v2 v3 (ix3 p f g) :=
  multiReduction_add_mid_abc (s25 v0 v2 v3) _ _ _ _ p g

/-- The weight cube at (p, f, g) is the softmax weight g of score row f of row p. -/
theorem s25_apply (p : Fin 8) (f g : Fin 512) :
    s25 v0 v2 v3 (ix3 p f g) = softmaxE (fun g' : Fin 512 => s16 v0 v2 v3 (ix3 p f g')) g := by
  unfold s25
  rw [divf_apply]
  unfold s24
  rw [broadcastTo_ab1_abc_apply]
  unfold s23
  rw [shapeCast_ab_ab1_apply, s22_apply]
  simp only [s21_apply]
  rfl

theorem s29_apply (p : Fin 8) (g : Fin 512) :
    s29 v0 v2 v3 (ix2 p g) = Ideal.div (∑ f : Fin 512, s25 v0 v2 v3 (ix3 p f g)) nK * v0 (ix2 p g) := by
  unfold s29
  rw [mulf_apply, s1_eq]
  unfold s28
  rw [divf_apply, broadcast_apply, s26_apply]
  rfl

theorem s30_apply (p : Fin 8) : s30 v0 v2 v3 (ix1 p) = ∑ g : Fin 512, s29 v0 v2 v3 (ix2 p g) :=
  multiReduction_add_last_ab (s29 v0 v2 v3) _ _ _ _ p

/-- The body's stored value at (p, d): the kernel's arrangement of the row computation, on row p of the block of x,
    the two weight rows, and entry d of the value weight row. -/
theorem pay_apply (p : Fin 8) (d : Fin 128) :
    k0_pay1 (F := Ideal) v0 v2 v3 v4 (ix2 p d)
      = kerRow (fun i : Fin 512 => v0 (ix2 p i)) (fun d' : Fin 128 => v2 (ix2 0 d')) (fun d' : Fin 128 => v3 (ix2 0 d'))
          (v4 (ix2 0 d)) aK nK := by
  rw [pay_eq]
  unfold s34
  rw [mulf_apply]
  unfold s32 s33
  rw [broadcastTo_a1_ab_apply, broadcastTo_1b_ab_apply]
  unfold s31
  rw [shapeCast_a_a1_apply, s30_apply]
  simp only [s29_apply, s25_apply, s16_apply]
  rfl

end Cert.Attn.KernelRow

end
-- ==== Proof.KernelValue.lean ====
/-
  From the kernel's blocks to its result array.
  The kernel call works on x flattened to 256 rows of 512; grid point t loads rows 8t … 8t + 7 and the three weight rows, and
  writes rows 8t … 8t + 7 of a [256, 128] array; the 32 points' blocks tile that array, so after the run it holds, at
  (r, d), the kernel's arrangement of the row computation on row r of the flattened x (`G`). The host lines around the
  call only re-lay rows: row r = 32 b + v of the flattened arrays is row (b, v) of the [8, 32, ·] arrays. So the program's
  result at (b, v, d) is the row computation on row (b, v) of the argument x (`out`).
-/
import proofs.«161998_j34471407518351_2_alg».proof.Proof.Gen.KernelIdeal.Frame
import proofs.«161998_j34471407518351_2_alg».proof.Proof.KernelRow
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.Attn.KernelValue

open Idealize.ShloMosaic.ValueIdx Cert.KernelIdeal Cert.KernelIdeal.Gen Cert.Attn.KernelRow

variable (m : (ℓ : Loc nD τ sig) → Buf (Elt Ideal) ℓ) (ρ : Dev nD → PrngReg)

theorem hz : (![0, 0] : Fin 2 → Nat) = fun _ => 0 := funext fun a => by fin_cases a <;> rfl

/-- The row computation on row r of a [256, 512] array, with entry d of the value weights. -/
def Grow (X : S256x512.Idx → EReal) (q k w : S1x128.Idx → EReal) (r : Fin 256) (d : Fin 128) : EReal :=
  kerRow (fun f : Fin 512 => X (ix2 r f)) (fun d' : Fin 128 => q (ix2 0 d')) (fun d' : Fin 128 => k (ix2 0 d')) (w (ix2 0 d)) aK nK

/-- What the [256, 128] array holds after the call, as one function of the arrays the call reads. -/
def G (X : S256x512.Idx → EReal) (q k w : S1x128.Idx → EReal) : S256x128.Idx → EReal :=
  fun i => Grow X q k w ⟨(i 0).val, (i 0).isLt⟩ ⟨(i 1).val, (i 1).isLt⟩

theorem G_apply (X : S256x512.Idx → EReal) (q k w : S1x128.Idx → EReal) (i : S256x128.Idx) (r : Fin 256) (d : Fin 128)
    (h0 : (i 0).val = r.val) (h1 : (i 1).val = d.val) : G X q k w i = Grow X q k w r d := by
  unfold G
  congr 1 <;> exact Fin.ext ‹_›

/-- The row computation depends on its arguments' values only. -/
theorem kerRow_congr {x x' : Fin 512 → EReal} {q q' k k' : Fin 128 → EReal} {w w' : EReal} (a n : EReal)
    (hx : ∀ f, x f = x' f) (hq : ∀ d, q d = q' d) (hk : ∀ d, k d = k' d) (hw : w = w') :
    kerRow x q k w a n = kerRow x' q' k' w' a n := by
  obtain rfl : x = x' := funext hx
  obtain rfl : q = q' := funext hq
  obtain rfl : k = k' := funext hk
  rw [hw]

/-- The printed index maps over the grid: the blocks of x and of the result move down one block of rows per point, the
    weight rows stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem row_lt (t : Fin cfg0.N) (p : Fin 8) : 8 * t.val + p.val < 256 := by
  have hN : cfg0.N = 32 := N_0
  have := t.isLt
  have := p.isLt
  omega

/-- The block of x at point t is rows 8t … 8t + 7 of the flattened x. -/
theorem iblk0_apply (c : Dev nD) (t : Fin cfg0.N) (p : Fin 8) (f : Fin 512) :
    (iblk m c 0 t : FVec Ideal S8x512 .f32) (ix2 p f)
      = (V m c main_v0 : S256x512.Idx → EReal) (ix2 ⟨8 * t.val + p.val, row_lt t p⟩ f) := by
  obtain ⟨e0, e1, -⟩ := idx_facts t
  unfold iblk
  rw [View.read_apply]
  show V m c main_v0 _ = V m c main_v0 _
  congr 1
  funext a
  apply Fin.ext
  match a with
  | ⟨0, _⟩ => show win0_0.index t 0 * 8 + 1 * p.val = 8 * t.val + p.val; rw [e0]; omega
  | ⟨1, _⟩ => show win0_0.index t 1 * 512 + 1 * f.val = f.val; rw [e1]; omega

/-- Each weight row's block, at every point, is the weight row. -/
theorem iblk1_apply (c : Dev nD) (t : Fin cfg0.N) (d : Fin 128) :
    (iblk m c 1 t : FVec Ideal S1x128 .f32) (ix2 0 d) = (V m c main_arg1 : S1x128.Idx → EReal) (ix2 0 d) := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t 0 * 1 + 1 * 0 = 0; rw [e0]
  | ⟨1, _⟩ => show win0_1.index t 1 * 128 + 1 * d.val = d.val; rw [e1]; omega

theorem iblk2_apply (c : Dev nD) (t : Fin cfg0.N) (d : Fin 128) :
    (iblk m c 2 t : FVec Ideal S1x128 .f32) (ix2 0 d) = (V m c main_arg2 : S1x128.Idx → EReal) (ix2 0 d) := by
  obtain ⟨-, -, -, -, e0, e1, -⟩ := idx_facts t
  unfold iblk
  rw [View.read_apply]
  show V m c main_arg2 _ = V m c main_arg2 _
  congr 1
  funext a
  apply Fin.ext
  match a with
  | ⟨0, _⟩ => show win0_2.index t 0 * 1 + 1 * 0 = 0; rw [e0]
  | ⟨1, _⟩ => show win0_2.index t 1 * 128 + 1 * d.val = d.val; rw [e1]; omega

theorem iblk3_apply (c : Dev nD) (t : Fin cfg0.N) (d : Fin 128) :
    (iblk m c 3 t : FVec Ideal S1x128 .f32) (ix2 0 d) = (V m c main_arg3 : S1x128.Idx → EReal) (ix2 0 d) := by
  obtain ⟨-, -, -, -, -, -, e0, e1, -⟩ := idx_facts t
  unfold iblk
  rw [View.read_apply]
  show V m c main_arg3 _ = V m c main_arg3 _
  congr 1
  funext a
  apply Fin.ext
  match a with
  | ⟨0, _⟩ => show win0_3.index t 0 * 1 + 1 * 0 = 0; rw [e0]
  | ⟨1, _⟩ => show win0_3.index t 1 * 128 + 1 * d.val = d.val; rw [e1]; omega

/-- What point t writes back is block t of `G` of the arrays as the call finds them. -/
theorem flushed_eq (c : Dev nD) (t : Fin cfg0.N) :
    (dats m 0 c).flushed 4 t
      = ((cfg0.win 4).blk t).view.read (Elt Ideal) (G (V m c main_v0) (V m c main_arg1) (V m c main_arg2) (V m c main_arg3)) := by
  obtain ⟨-, -, -, -, -, -, -, -, e40, e41⟩ := idx_facts t
  show (cfg0.win 4).cut (grid0.coords t) ((dats m 0 c).after 4 t) = _
  rw [after0_4]
  unfold out0_4
  rw [View.canon_unit_zero hz]
  simp only [View.ld_unit_zero (S := S8x512) hz, View.ld_unit_zero (S := S1x128) hz]
  funext j
  obtain ⟨p, d, rfl⟩ : ∃ (p : Fin 8) (d : Fin 128), j = ix2 p d := ⟨j 0, j 1, eq_ix2 j⟩
  show k0_pay1 (F := Ideal) (iblk m c 0 t) (iblk m c 1 t) (iblk m c 2 t) (iblk m c 3 t) (ix2 p d)
    = G (V m c main_v0) (V m c main_arg1) (V m c main_arg2) (V m c main_arg3) (((cfg0.win 4).blk t).view.emb (ix2 p d))
  refine (pay_apply (iblk m c 0 t) (iblk m c 1 t) (iblk m c 2 t) (iblk m c 3 t) p d).trans ?_
  rw [G_apply _ _ _ _ _ ⟨8 * t.val + p.val, row_lt t p⟩ d
    (by show win0_4.index t 0 * 8 + 1 * p.val = 8 * t.val + p.val; rw [e40]; omega)
    (by show win0_4.index t 1 * 128 + 1 * d.val = d.val; rw [e41]; omega)]
  unfold Grow
  exact kerRow_congr aK nK (fun f => iblk0_apply m c t p f) (fun d' => iblk1_apply m c t d') (fun d' => iblk2_apply m c t d')
    (iblk3_apply m c t d)

/-- An index of the [256, 128] array is in point t's block iff each coordinate is in the block's range on its axis. -/
theorem mem_blk (t : Fin cfg0.N) (i : S256x128.Idx) :
    i ∈ ((cfg0.win 4).blk t).view.set
      ↔ ∀ a : Fin 2, win0_4.index t a * S8x128.size a ≤ (i a).val ∧ (i a).val < win0_4.index t a * S8x128.size a + S8x128.size a := by
  show i ∈ ((View.whole main_v1).slice (win0_4.rect t)).set ↔ _
  rw [View.set_slice_whole, Rect.mem_set_unit]
  exact Iff.rfl

/-- The blocks tile the array: row r is in the block of point r / 8. -/
theorem cover (i : S256x128.Idx) : ∃ t : Fin cfg0.N, (cfg0.win 4).flush t = true ∧ i ∈ ((cfg0.win 4).blk t).view.set := by
  have hN : cfg0.N = 32 := N_0
  have hi0 : (i 0).val < 256 := (i 0).isLt
  have hi1 : (i 1).val < 128 := (i 1).isLt
  have ht : (i 0).val / 8 < cfg0.N := by omega
  obtain ⟨-, -, -, -, -, -, -, -, e40, e41⟩ := idx_facts ⟨(i 0).val / 8, ht⟩
  refine ⟨⟨(i 0).val / 8, ht⟩, flush0_4 _, ?_⟩
  rw [mem_blk]
  intro a
  match a with
  | ⟨0, _⟩ =>
    show win0_4.index ⟨(i 0).val / 8, ht⟩ 0 * 8 ≤ (i 0).val ∧ (i 0).val < win0_4.index ⟨(i 0).val / 8, ht⟩ 0 * 8 + 8
    rw [e40]
    show (i 0).val / 8 * 8 ≤ (i 0).val ∧ (i 0).val < (i 0).val / 8 * 8 + 8
    omega
  | ⟨1, _⟩ =>
    show win0_4.index ⟨(i 0).val / 8, ht⟩ 1 * 128 ≤ (i 1).val ∧ (i 1).val < win0_4.index ⟨(i 0).val / 8, ht⟩ 1 * 128 + 128
    rw [e41]
    omega

/-- The [256, 128] array after the call. -/
theorem final (c : Dev nD) :
    (dats m 0 c).arrAt 4 cfg0.N = G (V m c main_v0) (V m c main_arg1) (V m c main_arg2) (V m c main_arg3) :=
  (dats m 0 c).arrAt_eq_of_cover 4 _ (fun t _ => flushed_eq m c t) cover

/-! ### The host lines around the call -/

/-- The flattened x the call finds: the host line before it recasts the argument row-major. -/
theorem V_main_v0 (c : Dev nD) :
    (V m c main_v0 : S256x512.Idx → EReal)
      = shapeCast S256x512 (m ((c.tc : Thread nD τ).loc main_arg0)) shapeCasts_S8x32x512_S256x512 := by
  show StableHlo.after hostOps0 (fun b => m (c, b)) (Proc.devRef .tc main_v0) = _
  after_results
  rfl

/-- Row 32 b + v of the flattened array is row (b, v) of the [8, 32, 512] array. -/
theorem flat_apply {α : Type} (A : S8x32x512.Idx → α) (b : Fin 8) (v : Fin 32) (f : Fin 512) (hr : b.val * 32 + v.val < 256) :
    shapeCast S256x512 A shapeCasts_S8x32x512_S256x512 (ix2 ⟨b.val * 32 + v.val, hr⟩ f) = A (ix3 b v f) :=
  shapeCast_apply A _ _ _ (by rw [Shape.rowMajor_val_three, Shape.rowMajor_val_two]; rfl)

/-- Row (b, v) of the recast result is row 32 b + v of the [256, 128] array. -/
theorem unflat_apply {α : Type} (B : S256x128.Idx → α) (b : Fin 8) (v : Fin 32) (d : Fin 128) (hr : b.val * 32 + v.val < 256) :
    shapeCast S8x32x128 B shapeCasts_S256x128_S8x32x128 (ix3 b v d) = B (ix2 ⟨b.val * 32 + v.val, hr⟩ d) :=
  shapeCast_apply B _ _ _ (by rw [Shape.rowMajor_val_three, Shape.rowMajor_val_two]; rfl)

/-- The program's result as one function of its four arguments: at (b, v, d), the kernel's arrangement of the row
    computation on row (b, v) of x. -/
def out (a0 : S8x32x512.Idx → EReal) (a1 a2 a3 : S1x128.Idx → EReal) : S8x32x128.Idx → EReal := fun i =>
  kerRow (fun f : Fin 512 => a0 (ix3 (⟨(i 0).val, (i 0).isLt⟩ : Fin 8) (⟨(i 1).val, (i 1).isLt⟩ : Fin 32) f))
    (fun d' : Fin 128 => a1 (ix2 0 d')) (fun d' : Fin 128 => a2 (ix2 0 d')) (a3 (ix2 0 (⟨(i 2).val, (i 2).isLt⟩ : Fin 128))) aK nK

/-- The result buffer after the host line that follows the call: the [256, 128] array recast. -/
theorem tail_eq (c : Dev nD) :
    Pipeline.afterTail₀ cfgs (dats m) 0 (V0 m) [hostOps1] c main_v2
      = shapeCast S8x32x128 ((dats m 0 c).arrAt 4 cfg0.N) shapeCasts_S256x128_S8x32x128 := by
  unfold Pipeline.afterTail₀
  show StableHlo.after hostOps1 _ (Proc.devRef .tc main_v2) = _
  after_results
  exact congrArg (fun A => shapeCast S8x32x128 A shapeCasts_S256x128_S8x32x128)
    (Pipeline.withArrays_arr spec0 launch0.win.arr_inj c _ _ 4)

/-- The result buffer at the end of the program is `out` of the four arguments as launched. -/
theorem result_eq (c : Dev nD) :
    Pipeline.afterTail₀ cfgs (dats m) 0 (V0 m) [hostOps1] c main_v2
      = out (m ((c.tc : Thread nD τ).loc main_arg0)) (m ((c.tc : Thread nD τ).loc main_arg1))
          (m ((c.tc : Thread nD τ).loc main_arg2)) (m ((c.tc : Thread nD τ).loc main_arg3)) := by
  rw [tail_eq, final, V_main_v0, V_main_arg1, V_main_arg2, V_main_arg3]
  funext i
  obtain ⟨b, v, d, rfl⟩ : ∃ (b : Fin 8) (v : Fin 32) (d : Fin 128), i = ix3 b v d := ⟨i 0, i 1, i 2, eq_ix3 i⟩
  have hr : b.val * 32 + v.val < 256 := by have := b.isLt; have := v.isLt; omega
  rw [unflat_apply _ b v d hr, G_apply _ _ _ _ _ ⟨b.val * 32 + v.val, hr⟩ d rfl rfl]
  unfold Grow out
  exact kerRow_congr aK nK (fun f => flat_apply _ b v f hr) (fun _ => rfl) (fun _ => rfl) rfl

/-- The run, read: the result at `out` of the arguments, the arguments unchanged. -/
theorem run : θ_run defs (onTc (τ := τ) (main (F := Ideal))) ⟨m, fun _ => 0, ρ⟩ fun r => ∀ c : Dev nD,
      r.2.mem ((c.tc : Thread nD τ).loc main_v2)
        = out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.Attn.KernelValue

end
-- ==== Proof.LibHostMax.lean ====
/-
  A host maximum reduction of a rank-4 array along its last axis, at the exact values, read at an index given by
  coordinates — a general module, general in the extents: the result at (i, j, k) is the fold of `max` from the initial
  value over the entries (i, j, k, l), l running over the reduced axis.
-/
import Idealize.ShloMosaic.Lib.ValueIdx
import Idealize.ShloMosaic.PureOps.Reduce
import Idealize.ShloMosaic.PureOps.Ideal.Laws

namespace Cert.LibHostMax

open Idealize.ShloMosaic Idealize.ShloMosaic.ValueIdx

/-- Reducing `[a, b, c, d]` over its last axis: over `(i, j, k)`, coordinate `l` on the reduced axis is `(i, j, k, l)`. -/
theorem lift_last_abcd {a b c d : ℕ} (h : (⟨4, ![a, b, c, d]⟩ : Shape).Reduces [3] ⟨3, ![a, b, c]⟩) (i : Fin a) (j : Fin b)
    (k : Fin c) (l : Fin d) : h.lift (ix3 i j k) l = ix4 i j k l := by
  funext ax
  apply Fin.ext
  match ax with
  | ⟨0, _⟩ => rfl
  | ⟨1, _⟩ => rfl
  | ⟨2, _⟩ => rfl
  | ⟨3, _⟩ => rfl

/-- The host's maximum reduction along the last of four axes, at the exact values, read at `(i, j, k)`. -/
theorem hostReduce_max_last_abcd {φ : FTy} {a b c d : ℕ} {u : Shape} (x : FVec Ideal ⟨4, ![a, b, c, d]⟩ φ) (init : FVec Ideal u φ)
    (h' : (⟨4, ![a, b, c, d]⟩ : Shape).ReducesTo [3] ⟨3, ![a, b, c]⟩) (h : (⟨4, ![a, b, c, d]⟩ : Shape).Reduces [3] ⟨3, ![a, b, c]⟩)
    (hu : 0 < u.numel) (i : Fin a) (j : Fin b) (k : Fin c) :
    Host.reduce (FloatOps.maximumf (F := Ideal) (φ := φ)) x init h' hu (ix3 i j k)
      = (Finset.univ : Finset (Fin d)).fold max (init (Shape.Idx.first hu)) (fun l => x (ix4 i j k l)) :=
  (Host.reduce_eq_fold_single (FloatOps.maximumf (F := Ideal) (φ := φ)) x init h' h hu (ix3 i j k)).trans
    (congrArg (fun f => (Finset.univ : Finset (Fin d)).fold max (init (Shape.Idx.first hu)) f)
      (funext fun l => congrArg x (lift_last_abcd h i j k l)))

end Cert.LibHostMax
-- ==== Proof.RefRow.lean ====
/-
  The reference's result read at an entry (b, v, d): it is the reference's arrangement of the row computation (RowSpec's
  `refRow`) applied to row (b, v) of x, the two weight rows, and entry d of the value weight row.
  The reference is read one host operation at a time through the generated read-at-an-index lemmas; what is written here
  is where each layout operation's index lands when the index is given by coordinates (the projections x f * q d live on a
  [8, 32, 512, 128] array, the scores on [8, 32, 512, 512]), the row maximum the generated lemmas do not read (a fold of
  `max` from negative infinity, then `max` with negative infinity again, which changes nothing), and the zeros the sums
  start from.
-/
import proofs.«161998_j34471407518351_2_alg».proof.Proof.Gen.ReferenceIdeal.Read
import proofs.«161998_j34471407518351_2_alg».proof.Proof.RowSpec
import proofs.«161998_j34471407518351_2_alg».proof.Proof.Consts
import proofs.«161998_j34471407518351_2_alg».proof.Proof.LibHostMax
import Idealize.ShloMosaic.Lib.ValueIdx

noncomputable section

namespace Cert.Attn.RefRow

open Idealize.ShloMosaic Idealize.ShloMosaic.ValueIdx Cert.ReferenceIdeal Cert.ReferenceIdeal.Gen Cert.ReferenceIdeal.Read

/-- The scale as the reference spells it. -/
abbrev dR : EReal := Ideal.ofBits .f32 0x413504F3#32
/-- The row length as the reference spells it. -/
abbrev nR : EReal := Ideal.ofBits .f32 0x44000000#32

variable (x0 : FVec Ideal S8x32x512 .f32) (x1 x2 x3 : FVec Ideal S1x128 .f32)

/-- The query projection at (b, v, f, k): x (b, v, f) times the query weight k. -/
theorem v5_apply (b : Fin 8) (v : Fin 32) (f : Fin 512) (k : Fin 128) :
    val_main_v5 (F := Ideal) x0 x1 (ix4 b v f k) = x0 (ix3 b v f) * x1 (ix2 0 k) := by
  have e0 : idx_main_v0 (idx_main_v3 (ix4 b v f k)) = ix3 b v f :=
    funext fun a => Fin.ext (by match a with | ⟨0, _⟩ => rfl | ⟨1, _⟩ => rfl | ⟨2, _⟩ => rfl)
  have e1 : idx_main_v1 (idx_main_v2 (idx_main_v4 (ix4 b v f k))) = ix2 (0 : Fin 1) k :=
    funext fun a => Fin.ext (by match a with | ⟨0, _⟩ => rfl | ⟨1, _⟩ => exact Nat.mod_eq_of_lt k.isLt)
  rw [val_main_v5_apply, val_main_v3_apply, val_main_v0_apply, val_main_v4_apply, val_main_v2_apply, val_main_v1_apply, e0, e1]
  rfl

/-- The key projection at (b, v, g, k). -/
theorem v11_apply (b : Fin 8) (v : Fin 32) (g : Fin 512) (k : Fin 128) :
    val_main_v11 (F := Ideal) x0 x2 (ix4 b v g k) = x0 (ix3 b v g) * x2 (ix2 0 k) := by
  have e0 : idx_main_v6 (idx_main_v9 (ix4 b v g k)) = ix3 b v g :=
    funext fun a => Fin.ext (by match a with | ⟨0, _⟩ => rfl | ⟨1, _⟩ => rfl | ⟨2, _⟩ => rfl)
  have e1 : idx_main_v7 (idx_main_v8 (idx_main_v10 (ix4 b v g k))) = ix2 (0 : Fin 1) k :=
    funext fun a => Fin.ext (by match a with | ⟨0, _⟩ => rfl | ⟨1, _⟩ => exact Nat.mod_eq_of_lt k.isLt)
  rw [val_main_v11_apply, val_main_v9_apply, val_main_v6_apply, val_main_v10_apply, val_main_v8_apply, val_main_v7_apply, e0, e1]
  rfl

/-- The value projection at (b, v, g, d). -/
theorem v17_apply (b : Fin 8) (v : Fin 32) (g : Fin 512) (d : Fin 128) :
    val_main_v17 (F := Ideal) x0 x3 (ix4 b v g d) = x0 (ix3 b v g) * x3 (ix2 0 d) := by
  have e0 : idx_main_v12 (idx_main_v15 (ix4 b v g d)) = ix3 b v g :=
    funext fun a => Fin.ext (by match a with | ⟨0, _⟩ => rfl | ⟨1, _⟩ => rfl | ⟨2, _⟩ => rfl)
  have e1 : idx_main_v13 (idx_main_v14 (idx_main_v16 (ix4 b v g d))) = ix2 (0 : Fin 1) d :=
    funext fun a => Fin.ext (by match a with | ⟨0, _⟩ => rfl | ⟨1, _⟩ => exact Nat.mod_eq_of_lt d.isLt)
  rw [val_main_v17_apply, val_main_v15_apply, val_main_v12_apply, val_main_v16_apply, val_main_v14_apply, val_main_v13_apply, e0, e1]
  rfl

/-- The scaled score at (b, v, f, g) is the reference's score of positions (f, g) of row (b, v). -/
theorem v20_apply (b : Fin 8) (v : Fin 32) (f g : Fin 512) :
    val_main_v20 (F := Ideal) x0 x1 x2 (ix4 b v f g)
      = refScore (fun i : Fin 512 => x0 (ix3 b v i)) (fun d : Fin 128 => x1 (ix2 0 d)) (fun d : Fin 128 => x2 (ix2 0 d)) dR f g := by
  have el : ∀ k : Fin 128, lidx_main_v18 (ix4 b v f g) k = ix4 b v f k := fun k =>
    funext fun a => Fin.ext (by match a with | ⟨0, _⟩ => rfl | ⟨1, _⟩ => rfl | ⟨2, _⟩ => rfl | ⟨3, _⟩ => rfl)
  have er : ∀ k : Fin 128, ridx_main_v18 (ix4 b v f g) k = ix4 b v g k := fun k =>
    funext fun a => Fin.ext (by match a with | ⟨0, _⟩ => rfl | ⟨1, _⟩ => rfl | ⟨2, _⟩ => rfl | ⟨3, _⟩ => rfl)
  rw [val_main_v20_apply, val_main_v18_apply, val_main_v19_apply, val_main_cst_apply]
  simp only [el, er, v5_apply, v11_apply]
  rfl

/-- The row maximum at (b, v, f): the fold of `max` from the bottom element over the scores of row f. -/
theorem v23_apply (b : Fin 8) (v : Fin 32) (f : Fin 512) :
    val_main_v23 (F := Ideal) x0 x1 x2 (ix3 b v f)
      = (Finset.univ : Finset (Fin 512)).fold max ⊥ (fun g => val_main_v20 (F := Ideal) x0 x1 x2 (ix4 b v f g)) := by
  rw [val_main_v23_apply, val_main_v22_apply, val_main_cst_1_apply]
  unfold val_main_v21
  rw [Cert.LibHostMax.hostReduce_max_last_abcd (val_main_v20 (F := Ideal) x0 x1 x2) (val_main_cst_0 (F := Ideal))
    reducesTo_S8x32x512x512_S8x32x512_d3 (by decide) h_S_ b v f, val_main_cst_0_apply]
  show max (Ideal.ofBits .f32 0xFF800000#32) ((Finset.univ : Finset (Fin 512)).fold max (Ideal.ofBits .f32 0xFF800000#32) _) = _
  rw [Cert.Attn.Consts.ofBits_neg_inf, max_bot_left]

theorem v27_apply (b : Fin 8) (v : Fin 32) (f g : Fin 512) :
    val_main_v27 (F := Ideal) x0 x1 x2 (ix4 b v f g)
      = Ideal.exp (val_main_v20 (F := Ideal) x0 x1 x2 (ix4 b v f g)
          - (Finset.univ : Finset (Fin 512)).fold max ⊥ (fun g' => val_main_v20 (F := Ideal) x0 x1 x2 (ix4 b v f g'))) := by
  have e : idx_main_v24 (idx_main_v25 (ix4 b v f g)) = ix3 b v f :=
    funext fun a => Fin.ext (by match a with | ⟨0, _⟩ => rfl | ⟨1, _⟩ => rfl | ⟨2, _⟩ => rfl)
  rw [val_main_v27_apply, val_main_v26_apply, val_main_v25_apply, val_main_v24_apply, e, v23_apply]
  rfl

theorem v28_apply (b : Fin 8) (v : Fin 32) (f : Fin 512) :
    val_main_v28 (F := Ideal) x0 x1 x2 (ix3 b v f) = ∑ g : Fin 512, val_main_v27 (F := Ideal) x0 x1 x2 (ix4 b v f g) := by
  have e : ∀ g : Fin 512, idx_main_v28 (ix3 b v f) g = ix4 b v f g := fun g =>
    funext fun a => Fin.ext (by match a with | ⟨0, _⟩ => rfl | ⟨1, _⟩ => rfl | ⟨2, _⟩ => rfl | ⟨3, _⟩ => rfl)
  rw [val_main_v28_apply, val_main_cst_2_apply]
  simp only [e]
  show Ideal.ofBits .f32 0x00000000#32 + _ = _
  rw [Ideal.ofBits_zero_f32, zero_add]

/-- The weight at (b, v, f, g) is the softmax weight g of score row f of row (b, v). -/
theorem v31_apply (b : Fin 8) (v : Fin 32) (f g : Fin 512) :
    val_main_v31 (F := Ideal) x0 x1 x2 (ix4 b v f g)
      = softmaxE (fun g' : Fin 512 => val_main_v20 (F := Ideal) x0 x1 x2 (ix4 b v f g')) g := by
  have e : idx_main_v29 (idx_main_v30 (ix4 b v f g)) = ix3 b v f :=
    funext fun a => Fin.ext (by match a with | ⟨0, _⟩ => rfl | ⟨1, _⟩ => rfl | ⟨2, _⟩ => rfl)
  rw [val_main_v31_apply, val_main_v30_apply, val_main_v29_apply, e, v28_apply]
  simp only [v27_apply]
  rfl

/-- The reference's result at (b, v, d): the reference's arrangement of the row computation on row (b, v) of x, the two
    weight rows, and entry d of the value weight row. -/
theorem v35_apply (b : Fin 8) (v : Fin 32) (d : Fin 128) :
    val_main_v35 (F := Ideal) x0 x1 x2 x3 (ix3 b v d)
      = refRow (fun i : Fin 512 => x0 (ix3 b v i)) (fun d' : Fin 128 => x1 (ix2 0 d')) (fun d' : Fin 128 => x2 (ix2 0 d'))
          (x3 (ix2 0 d)) dR nR := by
  have e33 : ∀ f : Fin 512, idx_main_v33 (ix3 b v d) f = ix4 b v f d := fun f =>
    funext fun a => Fin.ext (by match a with | ⟨0, _⟩ => rfl | ⟨1, _⟩ => rfl | ⟨2, _⟩ => rfl | ⟨3, _⟩ => rfl)
  have el : ∀ f g : Fin 512, lidx_main_v32 (ix4 b v f d) g = ix4 b v f g := fun f g =>
    funext fun a => Fin.ext (by match a with | ⟨0, _⟩ => rfl | ⟨1, _⟩ => rfl | ⟨2, _⟩ => rfl | ⟨3, _⟩ => rfl)
  have er : ∀ f g : Fin 512, ridx_main_v32 (ix4 b v f d) g = ix4 b v g d := fun f g =>
    funext fun a => Fin.ext (by match a with | ⟨0, _⟩ => rfl | ⟨1, _⟩ => rfl | ⟨2, _⟩ => rfl | ⟨3, _⟩ => rfl)
  rw [val_main_v35_apply, val_main_v34_apply, val_main_cst_4_apply, val_main_v33_apply, val_main_cst_3_apply]
  simp only [e33, val_main_v32_apply, el, er, v31_apply, v17_apply, v20_apply]
  show Ideal.div (Ideal.ofBits .f32 0x00000000#32 + _) nR = _
  rw [Ideal.ofBits_zero_f32, zero_add]
  rfl

end Cert.Attn.RefRow

end
-- ==== Proof.lean ====
/-
  The certificate: a tiled kernel for a rank-one attention layer against its reference, equal at the exact values on
  finite inputs.

  For each of the 256 rows x (one per (b, v)) both programs compute, for every model coordinate d,
      out d = mean over f of  sum over g of  softmax_g (score f g) * x g * w_v d,
      score f g = x f * x g * (w_q . w_k) / D,
  with D the single-precision value nearest sqrt 128. The reference builds the projections x f * w_q d' on a
  [8, 32, 512, 128] array, contracts them over d' and divides by D; the kernel contracts the two weight rows once, multiplies
  by the folded reciprocal of D (read, by the certificate's table, as the exact rational 1 / D), and scales x before the
  outer product. After the softmax the reference contracts the weights with the projected values and then averages over f;
  the kernel averages the weights over f first, contracts with x, and multiplies by w_v d last.

  The two arrangements are equal on real numbers (Proof/RowSpec.lean): every intermediate is real — a row of scores is
  not empty, so its maximum is real, the exponentials are positive reals and so is their sum — and then the equality is
  distributivity and an exchange of two finite sums. It needs the inputs finite: that is the precondition (Proof/Finite.lean).
  What each program's result array holds, as a function of the arguments index by index: the kernel's from its generated
  frame run, its body read at an index (Proof/KernelRow.lean), its 32 blocks of 8 rows tiling the [256, 128] array and the two
  host recasts around the call (Proof/KernelValue.lean); the reference's from its generated run, read one operation at a time
  (Proof/RefRow.lean).
-/
import proofs.«161998_j34471407518351_2_alg».proof.Defs
import proofs.«161998_j34471407518351_2_alg».proof.Proof.Gen.Kernel
import proofs.«161998_j34471407518351_2_alg».proof.Proof.Gen.Kernel.Skeleton
import proofs.«161998_j34471407518351_2_alg».proof.Proof.Gen.Kernel.Launch
import proofs.«161998_j34471407518351_2_alg».proof.Proof.Gen.Kernel.Points
import proofs.«161998_j34471407518351_2_alg».proof.Proof.Gen.Kernel.Frame
import proofs.«161998_j34471407518351_2_alg».proof.Proof.Gen.KernelIdeal
import proofs.«161998_j34471407518351_2_alg».proof.Proof.Gen.KernelIdeal.Skeleton
import proofs.«161998_j34471407518351_2_alg».proof.Proof.Gen.KernelIdeal.Launch
import proofs.«161998_j34471407518351_2_alg».proof.Proof.Gen.KernelIdeal.Points
import proofs.«161998_j34471407518351_2_alg».proof.Proof.Gen.KernelIdeal.Frame
import proofs.«161998_j34471407518351_2_alg».proof.Proof.Gen.ReferenceIdeal
import proofs.«161998_j34471407518351_2_alg».proof.Proof.Gen.Pre_finite_inputs
import proofs.«161998_j34471407518351_2_alg».proof.Proof.Gen.ReferenceIdeal.Run
import proofs.«161998_j34471407518351_2_alg».proof.Proof.Gen.ReferenceIdeal.Read
import proofs.«161998_j34471407518351_2_alg».proof.Proof.Consts
import proofs.«161998_j34471407518351_2_alg».proof.Proof.RowSpec
import proofs.«161998_j34471407518351_2_alg».proof.Proof.Finite
import proofs.«161998_j34471407518351_2_alg».proof.Proof.KernelRow
import proofs.«161998_j34471407518351_2_alg».proof.Proof.KernelValue
import proofs.«161998_j34471407518351_2_alg».proof.Proof.RefRow
import Idealize.ShloMosaic.Adequacy
import Idealize.ShloMosaic.Init

noncomputable section

namespace Cert.Proof

open Idealize.ShloMosaic Idealize.ShloMosaic.TcCoe Idealize.SL.Sem Idealize.ShloMosaic.ValueIdx
open Cert.Attn

/-- The kernel's folded reciprocal scale denotes, by the certificate's table, the exact reciprocal of the reference's
    divisor 11863283 / 1048576. -/
theorem inv_scale :
    Named.named (F := Ideal) Cert.KernelIdeal.κ "inv_sqrt_d" (φ := .f32) 0x3DB504F3#32 = ((1048576 / 11863283 : ℝ) : EReal) :=
  IdealRules.named_const.ideal_named_scalar _ _ _ _ rfl

/-- On real arguments the reference's result, index by index, is the kernel's: at (b, v, d) both are the row computation
    on row (b, v) of x, in the two arrangements that agree on real numbers. -/
theorem ref_eq_out (a0 : Cert.KernelIdeal.S8x32x512.Idx → EReal) (a1 a2 a3 : Cert.KernelIdeal.S1x128.Idx → EReal)
    (h0 : ∀ i, ∃ r : ℝ, a0 i = (r : EReal)) (h1 : ∀ i, ∃ r : ℝ, a1 i = (r : EReal))
    (h2 : ∀ i, ∃ r : ℝ, a2 i = (r : EReal)) (h3 : ∀ i, ∃ r : ℝ, a3 i = (r : EReal)) :
    Cert.ReferenceIdeal.Read.val_main_v35 (F := Ideal) a0 a1 a2 a3 = Cert.Attn.KernelValue.out a0 a1 a2 a3 := by
  choose r0 hr0 using h0
  choose r1 hr1 using h1
  choose r2 hr2 using h2
  choose r3 hr3 using h3
  funext i
  obtain ⟨b, v, d, rfl⟩ : ∃ (b : Fin 8) (v : Fin 32) (d : Fin 128), i = ix3 b v d := ⟨i 0, i 1, i 2, eq_ix3 i⟩
  rw [Cert.Attn.RefRow.v35_apply]
  show refRow (fun i : Fin 512 => a0 (ix3 b v i)) (fun d' : Fin 128 => a1 (ix2 0 d')) (fun d' : Fin 128 => a2 (ix2 0 d'))
      (a3 (ix2 0 d)) (Ideal.ofBits .f32 0x413504F3#32) (Ideal.ofBits .f32 0x44000000#32)
    = kerRow (fun f : Fin 512 => a0 (ix3 b v f)) (fun d' : Fin 128 => a1 (ix2 0 d')) (fun d' : Fin 128 => a2 (ix2 0 d'))
      (a3 (ix2 0 d)) (Named.named (F := Ideal) Cert.KernelIdeal.κ "inv_sqrt_d" (φ := .f32) 0x3DB504F3#32) (Ideal.ofBits .f32 0x44000000#32)
  simp only [hr0, hr1, hr2, hr3]
  rw [inv_scale, Consts.ofBits_scale, Consts.ofBits_512,
    show ((1048576 / 11863283 : ℝ)) = 1 / (11863283 / 1048576 : ℝ) by norm_num]
  exact (kerRow_eq_refRow _ _ _ _ _ _ (by norm_num) (by norm_num)).symm

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the table gives the folded reciprocal its exact value. -/
theorem preserves : Cert.preserves_Kernel_KernelIdeal :=
  IdealRules.named_const.statement Cert.KernelIdeal.κ "inv_sqrt_d" .f32 0x3DB504F3#32 ((1048576 / 11863283 : ℝ) : EReal) rfl

/-- From memories agreeing on the four arguments, finite by the precondition, both programs end with the same result. -/
theorem algebraic : Cert.algebraic_KernelIdeal_ReferenceIdeal := by
  intro m ρ m' ρ' hpre hagree
  refine ⟨_, Cert.Attn.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, (hagree c).1, (hagree c).2.1, (hagree c).2.2.1, (hagree c).2.2.2]
  obtain ⟨f0, f1, f2, f3⟩ := Cert.Attn.Finite.real_of_fn _ _ _ _ (hpre c)
  exact ref_eq_out _ _ _ _ f0 f1 f2 f3

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
